-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8192x2048 : Shape := ⟨2, ![8192, 2048]⟩
abbrev S8192 : Shape := ⟨1, ![8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x2048 .f32) (main_arg1 : FVec F S8192x2048 .f32) (main_arg2 : FVec F S8192 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S16384x2048 : Shape := ⟨2, ![16384, 2048]⟩
abbrev S8192x2048 : Shape := ⟨2, ![8192, 2048]⟩
abbrev S8192 : Shape := ⟨1, ![8192]⟩
abbrev S1x2048 : Shape := ⟨2, ![1, 2048]⟩
abbrev S1024x2048 : Shape := ⟨2, ![1024, 2048]⟩
abbrev S2048 : Shape := ⟨1, ![2048]⟩
abbrev S16384x1 : Shape := ⟨2, ![16384, 1]⟩
abbrev S1024x1 : Shape := ⟨2, ![1024, 1]⟩
abbrev S1024 : Shape := ⟨1, ![1024]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S1x2048, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S16384x1, .f32⟩
  | .hbm, ⟨8, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x1, .f32⟩
  | .local _ .vmem, ⟨8, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S8192_S_d0 : S8192.ReducesTo [0] S_
  h_S_ : 0 < S_.numel
  bcast_S_S16384x1 : S_.BroadcastsInDim S16384x1 (![] : Fin 0 → Fin S16384x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)

variable [Facts₀]

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S8192x2048 : Shape := ⟨2, ![8192, 2048]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩
abbrev S16384 : Shape := ⟨1, ![16384]⟩
abbrev S16384x1 : Shape := ⟨2, ![16384, 1]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S16384x8192, .f32⟩
  | .hbm, ⟨4, _⟩ => ⟨S1x8192, .f32⟩
  | .hbm, ⟨5, _⟩ => ⟨S16384x8192, .f32⟩
  | .hbm, ⟨6, _⟩ => ⟨S16384x8192, .f32⟩
  | .hbm, ⟨7, _⟩ => ⟨S_, .f32⟩
  | .hbm, ⟨8, _⟩ => ⟨S16384, .f32⟩
  | .hbm, ⟨9, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  reducesTo_S16384x8192_S16384_d1 : S16384x8192.ReducesTo [1] S16384
  h_S_ : 0 < S_.numel
  bcast_S16384_S16384x1_0 : S16384.BroadcastsInDim S16384x1 (![0] : Fin 1 → Fin S16384x1.rank)
  dot_S16384x2048_S8192x2048_S16384x8192_1_1_0_0_n_n_wf : DotDims.WF S16384x2048 S8192x2048 S16384x8192 [1] [1] [0] [0] [] []

variable [Facts₀]

def dot_S16384x2048_S8192x2048_S16384x8192_1_1_0_0_n_n : DotDims S16384x2048 S8192x2048 S16384x8192 where
  lhsContracting := [1]
  rhsContracting := [1]
  lhsNonContracting := [0]
  rhsNonContracting := [0]
  lhsBatch := []
  rhsBatch := []
  wf := dot_S16384x2048_S8192x2048_S16384x8192_1_1_0_0_n_n_wf

class Facts : Prop extends Facts₀ where

variable [Facts]
-- ==== Proof.K.R0Shared.lean ====
/-
  The column-sum region (the first kernel launch): what its three control cases share.

  The kernel visits the 8 row blocks of `W` in order. At the first block it clears an accumulator row kept in scratch
  memory; at every block it adds the block's column sums to the accumulator; at the last block it copies the accumulator
  into the output row. So a grid point is in one of three cases — first (clear, add), middle (add), last (add, copy out) —
  selected by two conditions on the block number, decided here over the grid in closed form. The output window is idle
  (neither stored into nor written back) at every point but the last. Everything is stated at a parameter `V`: the buffer
  contents when the region is entered.
-/
import proofs.«154303_j57415122812994_1_alg».proof.Proof.Gen.Kernel.Launch
import proofs.«154303_j57415122812994_1_alg».proof.Proof.Gen.Kernel.Skeleton
import proofs.«154303_j57415122812994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds row block `t` of `W` at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the block number -/

/-- "This is the first block": the body's first conditional, as the kernel computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last block": the body's second conditional. -/
abbrev cond0_1 (i : grid0.Coords) : Prop := k0_cond2 i = 1#1
/-- It holds at point 7 only. -/
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

/-- The input window is never idle. -/
theorem liveAt0_0 : ∀ t : Fin cfg0.N, cfg0.idle 0 (grid0.coords t) = false := by decide +kernel
/-- Before the last block the output window is idle: nothing is stored into it, -/
theorem idleAt0_1 : ∀ t : Fin cfg0.N, ¬cond0_1 (grid0.coords t) → cfg0.idle 1 (grid0.coords t) = true := by decide +kernel
/-- and it is not written back. -/
theorem noFlush0_1 : ∀ t : Fin cfg0.N, ¬cond0_1 (grid0.coords t) → (cfg0.win 1).flush t = false := by decide +kernel
/-- At the last block it is live. -/
theorem liveAt0_1 : ∀ t : Fin cfg0.N, cond0_1 (grid0.coords t) → cfg0.idle 1 (grid0.coords t) = false := by decide +kernel

/-! ## The memrefs the body is called with -/

/-- The output window's one staging buffer as a view: what it holds is stated through it. -/
abbrev VO0_1 : View sig .tc .vmem S1x2048 .f32 := (Memref.whole cc0_stg1_0 : Memref sig .tc .vmem S1x2048 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The accumulator row: a whole scoped buffer of the kernel's own, passed beside the windows. -/
abbrev scM0_0 : Memref sig .tc .vmem S1x2048 .f32 := Memref.whole cc0_scratch0
/-- The same as a view. -/
abbrev VS0_0 : View sig .tc .vmem S1x2048 .f32 := scM0_0.view

/-- What the region hands its body besides the windows — every scoped buffer no window stages at some contents, and the
    generator register at some state — with the accumulator named apart from the staging buffers of the other region. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.Kernel.Hand

end
-- ==== Proof.K.R0RunA.lean ====
/-
  The column-sum body run whole in its FIRST-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator, found at anything, is cleared and then holds the block's column sums; the output row is
    handed back untouched. -/
noncomputable def kernelRun0_A (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R0RunB.lean ====
/-
  The column-sum body run whole in its MIDDLE-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle block: the accumulator, found at `xs0`, gains the block's column sums; the output row is handed back
    untouched. -/
noncomputable def kernelRun0_B (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R0RunC.lean ====
/-
  The column-sum body run whole in its LAST-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block: the accumulator, found at `xs0`, gains the block's column sums, and the output row, found at
    anything, receives the accumulator. -/
noncomputable def kernelRun0_C (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.K.R0Frame.lean ====
/-
  The column-sum region: what the accumulator and the output row hold after each grid point, the region's invariant, its
  proof data and its body obligation.

  After point `n` the accumulator holds what the case of point `n` leaves, computed from row block `n` of `W` and, past the
  first point, from what the accumulator held after point `n - 1`: a recursion on the point. The output row is stored only
  at the last point, with the accumulator's final contents. The invariant before the first point is the region's generic
  one (every scoped buffer at some contents); before any later point it names the accumulator's contents and carries the
  other region's staging buffers and the generator register along untouched.
-/
import proofs.«154303_j57415122812994_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case stores nothing into the output row: a placeholder that nothing consults (the window is idle there). -/
def out0_A_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) : Vec F S1x2048 .f32 :=
  VO0_1.read (Elt F) (VO0_1.writes (Elt F) VO0_1.junk (kernelRun0_A c i arg1 harg1 arg2 harg2 arg3 harg3 hc0 hc1 x0).1)

/-- The first case's stores into the accumulator cover it. -/
theorem scover0_A_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) (y : S1x2048.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x2048.size (by sl_kernel_rfl) y

/-- What the first case leaves in the accumulator. -/
def sout0_A_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) : Vec F S1x2048 .f32 :=
  VS0_0.read (Elt F) (VS0_0.writes (Elt F) VS0_0.junk (kernelRun0_A c i arg1 harg1 arg2 harg2 arg3 harg3 hc0 hc1 x0).2.1)

/-- A middle case stores nothing into the output row either. -/
def out0_B_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) : Vec F S1x2048 .f32 :=
  VO0_1.read (Elt F) (VO0_1.writes (Elt F) VO0_1.junk (kernelRun0_B c i arg1 harg1 arg2 harg2 arg3 harg3 hc0 hc1 x0 xs0).1)

/-- A middle case's store into the accumulator covers it. -/
theorem scover0_B_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) (y : S1x2048.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x2048.size (by sl_kernel_rfl) y

/-- What a middle case leaves in the accumulator. -/
def sout0_B_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) : Vec F S1x2048 .f32 :=
  VS0_0.read (Elt F) (VS0_0.writes (Elt F) VS0_0.junk (kernelRun0_B c i arg1 harg1 arg2 harg2 arg3 harg3 hc0 hc1 x0 xs0).2.1)

/-- The last case's store into the output row covers it. -/
theorem cover0_C_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) (y : S1x2048.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x2048.size (by sl_kernel_rfl) y

/-- What the last case leaves in the output row. -/
def out0_C_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) : Vec F S1x2048 .f32 :=
  VO0_1.read (Elt F) (VO0_1.writes (Elt F) VO0_1.junk (kernelRun0_C c i arg1 harg1 arg2 harg2 arg3 harg3 hc0 hc1 x0 xs0).1)

/-- The last case's store into the accumulator covers it. -/
theorem scover0_C_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) (y : S1x2048.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x2048.size (by sl_kernel_rfl) y

/-- What the last case leaves in the accumulator. -/
def sout0_C_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) : Vec F S1x2048 .f32 :=
  VS0_0.read (Elt F) (VS0_0.writes (Elt F) VS0_0.junk (kernelRun0_C c i arg1 harg1 arg2 harg2 arg3 harg3 hc0 hc1 x0 xs0).2.1)

/-! ## What the output row and the accumulator hold after each point -/

/-- THE ACCUMULATION: the pair (output row, accumulator) after the body at position `n` — the case the closed forms select
    at `n`, run on row block `n` and, past the first point, on what the accumulator held after position `n - 1`. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h' => by (try dsimp only at h'); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h' => by (try dsimp only at h'); omega) ((hcond0_1 ⟨0, hn⟩).mp h)) (iblk0 V c 0 ⟨0, hn⟩))
  | n + 1, hn =>
    if h1 : n + 1 = 7 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val = 0) (h1 : ¬t.val = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (by (try dsimp only); omega)

/-- `outsAt0` at a middle point: over what the point before left. -/
theorem outsAt0_B (c : Dev nD) (t : Fin cfg0.N) (h0 : ¬t.val = 0) (h1 : ¬t.val = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The other region's five staging buffers, each whole at some contents: this region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's generic invariant: the accumulator at some contents, the other region's staging buffers, the generator
    register. -/
theorem PhiA0_eq' (c : Dev nD) :
    (Pipeline.ΦA spec0 c : sProp 𝕄) = iprop(iprop((∃ d, owns (c : Thread nD τ) scM0_0 fullShare d) ∗ rest0 c) ∗ (∃ r, prngReg c r)) := by
  rw [PhiA0_eq]; unfold rest0; rfl

/-- The invariant before position `n`: the generic one before the first point; afterwards the accumulator at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The proof data of the column-sum pipeline on core `c`: the arrays as the region finds them; after the body at point
    `t` the input's buffer at row block `t` and the output row at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator
    at what the point before left (at anything at the first point) and takes it back at this point's contents; the other
    region's staging buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  by_cases h1 : t.val = 7
  · have h0 : ¬t.val = 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [outsAt0_C V c t h0 h1]
    unfold out0_C_1 sout0_C_0; (try dsimp only)
    rw [PhiS_castSucc V c t, PhiS_pos V c _ _ h0]
    iintro ⟨⟨⟨HS0, Hr⟩, Hg⟩, Ho, ⟨%d0, H0⟩, ⟨%d1, H1⟩⟩
    iapply ((kernelRun0_C c (grid0.coords t) _ _ _ _ _ _ (fun h => h0 ((hcond0_0 t).mp h)) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (cover0_C_1 c _ _ _ _ _ _ _ _ _ _ _)
  · rw [Dat.leavesExact_idle (dat0 V c) 1 t (idleAt0_1 t (fun h => h1 ((hcond0_1 t).mp h))) (noFlush0_1 t (fun h => h1 ((hcond0_1 t).mp h)))]
    by_cases h0 : t.val = 0
    · rw [outsAt0_A V c t h0 h1]
      unfold sout0_A_0; (try dsimp only)
      rw [PhiS_castSucc V c t, PhiS_zero V c _ _ h0, PhiA0_eq']
      iintro ⟨⟨⟨HS0, Hr⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _)
          iexact Hr
        iexact Hg
      isplitl [Ho]; · iexact Ho
      isplitl [H0]; · iexact H0
      iexists _; iexact H1
    · rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands its body at entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the generic one back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hr⟩, Hg⟩
  isplitl [HS0 Hr]
  · isplitl [HS0]
    · iexists _; iexact HS0
    iexact Hr
  iexact Hg

end Cert.Kernel.Hand

end
-- ==== Proof.K.Region1.lean ====
/- Region 1 of @main (the row-times-vector kernel, pipeline 1), at a PARAMETER `V`: the TensorCore's buffer
   contents when the region is entered. Each window's block at a grid point is read off its array; the body
   leaves both input buffers as found and the output buffer at the payload of the two input blocks; the proof
   data states exactly that, and the body obligation holds at every grid point. Everything here is generic in
   the float interpretation. -/
import proofs.«154303_j57415122812994_1_alg».proof.Proof.Gen.Kernel.Launch
import proofs.«154303_j57415122812994_1_alg».proof.Proof.Gen.Kernel.Skeleton
import proofs.«154303_j57415122812994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the matrix, one block of 1024 rows per point) holds its block at every point, for ANY proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the vector, the whole array, its block index constant) holds its block at every point, fetched
    there or not: where it is not fetched the index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S1024x2048 := Rect.unit (s := S1024x2048) ![0, 0] S1024x2048.size inb_S1024x2048_S1024x2048_0_0
abbrev r1_1 : Rect S1x2048 := Rect.unit (s := S1x2048) ![0, 0] S1x2048.size inb_S1x2048_S1x2048_0_0
abbrev r1_2 : Rect S1024x1 := Rect.unit (s := S1024x1) ![0, 0] S1024x1.size inb_S1024x1_S1024x1_0_0

/-! ## What the body leaves in the output window's buffer -/

/-- Window 2's staging buffer after the body, from the two input blocks: its one store, of the whole block, of the
    payload of the two whole-block loads. -/
def out1_2 (x0 : Vec F S1024x2048 .f32) (x1 : Vec F S1x2048 .f32) : Vec F S1024x1 .f32 :=
  View.canon [⟨r1_2, k1_pay1 (View.ld x0 r1_0) (View.ld x1 r1_1)⟩]

/-- The one store tiles the buffer, so it covers it. -/
theorem cover1_2 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

/-! ## The body's triple -/

set_option maxHeartbeats 1000000 in
/-- The kernel body on whole staging memrefs, the inputs' at contents `x0`, `x1` and the output's at anything, runs
    to the continuation holding the inputs' as they were and the output's at `out1_2 x0 x1`: it loads the two input
    blocks, loads the output buffer without using what it read, and stores the payload over the whole output buffer. -/
theorem sound_kernel1 (c : Dev nD) (E : Set ℕ) (i : grid1.Coords) (arg1 : Memref sig .tc .vmem S1024x2048 .f32) (harg1 : arg1.IsWhole) (arg2 : Memref sig .tc .vmem S1x2048 .f32) (harg2 : arg2.IsWhole) (arg3 : Memref sig .tc .vmem S1024x1 .f32) (harg3 : arg3.IsWhole)
    (x0 : Vec F S1024x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matvec_kernel i arg1 harg1 arg2 harg2 arg3 harg3) K := by
  simp only [cc1__matvec_kernel_eq_skeleton]; unfold cc1__matvec_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The whole program run: the column-sum region, the row-dot region, then the host's bias sum and final addition.

  Between two items of the program every unscoped buffer of the core is held at a named valuation: the launch memory; then
  the first region's arrays at what its write-backs leave (its output row at the accumulated column sums), everything else
  as before; then the same for the second region; then the host operations applied. Every weakly fair execution
  terminates, and the final memory holds every unscoped buffer at the last valuation — from which both the frame (the
  arguments are unchanged) and the value of the result are read.
-/
import proofs.«154303_j57415122812994_1_alg».proof.Proof.K.R0Frame
import proofs.«154303_j57415122812994_1_alg».proof.Proof.K.Region1
import proofs.«154303_j57415122812994_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev WL0 : Dev nD → Valuation τ sig (Elt F) := fun c b => m (c, b)
/-- The same read at the core's references: what the first region's proof data take. -/
abbrev VR0 : (c : Dev nD) → (b : Ref sig .tc) → Buf (Elt F) ((c : Thread nD τ).loc b) := fun c b => WL0 m c b
/-- After the first region: its arrays at what the pipeline leaves, every other buffer as entered. -/
def WL1 (c : Dev nD) : Valuation τ sig (Elt F) :=
  Pipeline.withArrays spec0 c (WL0 m c) fun w => (dat0 (VR0 m) c).arrAt w cfg0.N
theorem WL1_arr (c : Dev nD) (w : Fin cfg0.W) :
    WL1 m c (Proc.devRef .tc (Pipeline.arrRef spec0 w)) = (dat0 (VR0 m) c).arrAt w cfg0.N := by
  unfold WL1; exact Pipeline.withArrays_arr spec0 launch0.win.arr_inj c _ _ w
theorem WL1_of_ne (c : Dev nD) (b : Ref sig .tc) (hb : ∀ w, Pipeline.arrRef spec0 w ≠ b) :
    WL1 m c (Proc.devRef .tc b) = WL0 m c (Proc.devRef .tc b) := by
  unfold WL1; exact Pipeline.withArrays_of_ne spec0 c _ _ b hb
abbrev VR1 : (c : Dev nD) → (b : Ref sig .tc) → Buf (Elt F) ((c : Thread nD τ).loc b) := fun c b => WL1 m c b
theorem hF0 (c : Dev nD) (w : Fin cfg0.W) : (dat0 (VR0 m) c).arrAt w cfg0.N = VR1 m c (Pipeline.arrRef spec0 w) :=
  (WL1_arr m c w).symm
theorem hrest0 (c : Dev nD) : ∀ b, b ∉ Finset.univ.image (Pipeline.arrRef spec0) → VR1 m c b = VR0 m c b :=
  fun b hb => WL1_of_ne m c b fun w e => hb (Finset.mem_image.mpr ⟨w, Finset.mem_univ _, e⟩)

/-- After the second region: its arrays at what the pipeline leaves, every other buffer as entered. -/
def WL2 (c : Dev nD) : Valuation τ sig (Elt F) :=
  Pipeline.withArrays spec1 c (WL1 m c) fun w => (dat1 (VR1 m) c).arrAt w cfg1.N
theorem WL2_arr (c : Dev nD) (w : Fin cfg1.W) :
    WL2 m c (Proc.devRef .tc (Pipeline.arrRef spec1 w)) = (dat1 (VR1 m) c).arrAt w cfg1.N := by
  unfold WL2; exact Pipeline.withArrays_arr spec1 launch1.win.arr_inj c _ _ w
theorem WL2_of_ne (c : Dev nD) (b : Ref sig .tc) (hb : ∀ w, Pipeline.arrRef spec1 w ≠ b) :
    WL2 m c (Proc.devRef .tc b) = WL1 m c (Proc.devRef .tc b) := by
  unfold WL2; exact Pipeline.withArrays_of_ne spec1 c _ _ b hb
abbrev VR2 : (c : Dev nD) → (b : Ref sig .tc) → Buf (Elt F) ((c : Thread nD τ).loc b) := fun c b => WL2 m c b
theorem hF1 (c : Dev nD) (w : Fin cfg1.W) : (dat1 (VR1 m) c).arrAt w cfg1.N = VR2 m c (Pipeline.arrRef spec1 w) :=
  (WL2_arr m c w).symm
theorem hrest1 (c : Dev nD) : ∀ b, b ∉ Finset.univ.image (Pipeline.arrRef spec1) → VR2 m c b = VR1 m c b :=
  fun b hb => WL2_of_ne m c b fun w e => hb (Finset.mem_image.mpr ⟨w, Finset.mem_univ _, e⟩)

/-- After the host operations. -/
abbrev WL3 : Dev nD → Valuation τ sig (Elt F) := fun c => StableHlo.after hostOps2 (WL2 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)
/-- The host operations as a segment over the unscoped references from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register. -/
abbrev Tₙr (c : Dev nD) : sProp 𝕄 := iprop(StableHlo.held (c : Thread nD τ) (Pipeline.ucRefs τ sig) (WL3 m c) ∗ ∃ r, prngReg c r)

/-! ## The first region's invariant at its two ends -/

/-- At entry: the scoped buffers no window stages and the generator register make the invariant before the first point. -/
theorem hin0' (V : (c : Dev nD) → (b : Ref sig .tc) → Buf (Elt F) ((c : Thread nD τ).loc b)) (c : Dev nD) :
    (iprop(Pipeline.scopedRest spec0 c ∗ ∃ r, prngReg c r) : sProp 𝕄) ⊢ (dat0 V c).Φ 0 := by
  have h := hin0 V c; unfold Pipeline.ΦA at h; exact h

/-- At exit: the invariant after the last point gives them back. -/
theorem hout0' (V : (c : Dev nD) → (b : Ref sig .tc) → Buf (Elt F) ((c : Thread nD τ).loc b)) (c : Dev nD) :
    (dat0 V c).Φ (Fin.last cfg0.N) ⊢ (iprop(Pipeline.scopedRest spec0 c ∗ ∃ r, prngReg c r) : sProp 𝕄) := by
  have h := hout0 V c; unfold Pipeline.ΦA at h; exact h

/-! ## The regions as segments -/

set_option backward.isDefEq.respectTransparency.types false in
/-- Region 0 as a segment: entered from every unscoped buffer at `WL0`, left at `WL1`. Its windows' arrays are split
    out of the unscoped buffers at entry and put back at their final contents at exit; the generator register goes into
    the region's invariant and comes back; nothing is owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ Lr lvr 0 fun _ _ => rfl
  pre c := iprop(StableHlo.held (c : Thread nD τ) (Pipeline.ucRefs τ sig) (WL0 m c) ∗ Rr c)
  post c := iprop(StableHlo.held (c : Thread nD τ) (Pipeline.ucRefs τ sig) (WL1 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR0 m) c).Φ 0 from rfl]
    iintro ⟨Hp, -, Hr⟩
    iapply (hin0' (VR0 m) c)
    isplitl [Hr]; · iexact Hr
    iexact Hp
  hout c := by
    rw [Pipeline.ownSems0_none]
    rw [show (pdats m 0 c).Φ (Fin.last _) = (dat0 (VR0 m) c).Φ (Fin.last cfg0.N) from rfl]
    iintro HP
    ihave H := (hout0' (VR0 m) c) $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `WL1`, left at `WL2`. Its windows' arrays are split
    out of the unscoped buffers at entry and put back at their final contents at exit; the generator register goes into
    the region's invariant and comes back; nothing is owed; the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ Lr lvr 1 fun _ _ => rfl
  pre c := iprop(StableHlo.held (c : Thread nD τ) (Pipeline.ucRefs τ sig) (WL1 m c) ∗ Rr c)
  post c := iprop(StableHlo.held (c : Thread nD τ) (Pipeline.ucRefs τ sig) (WL2 m c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VR2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three items in order: the two regions, then the host operations. -/
abbrev rsegs : List (Pipeline.Seg (pcfgs (F := F)) adm (pdats m) () defs₀ 𝒱r Lr lvr) :=
  [ .region (reg0 m),
    .region (reg1 m),
    .host (hsegr hostOps2 hostOps2_sub hostOps2_fresh (WL2 m)) ]
/-- The program IS the run of the segments. -/
theorem main_run (c : Dev nD) : main (F := F) c = Pipeline.Seg.run (rsegs m) := (main_chain c).trans (by chain_rfl)

set_option backward.isDefEq.respectTransparency.types false in
/-- THE RUN. From any memory with zero counters, every weakly fair execution of the program terminates, nothing
    faulting, and every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WL3 m c b) :=
  Pipeline.θ_run_regions_kit (pcfgs (F := F)) adm (pdats m) () cellOf_inj emb₁ defs₀ 𝒱r Lr lvr m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WL0 m c) ∗ Rr c)) (Tₙ := Tₙr m)
    (hch := ⟨fun _ => .rfl, fun _ => .rfl, fun _ => .rfl, fun c => by
      show iprop(StableHlo.held (c : Thread nD τ) (Pipeline.ucRefs τ sig) (WL3 m c) ∗ Rr c) ⊢ iprop(Tₙr m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (WL0 m c)
        from Pipeline.unscopedBufs_held c (WL0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WL3 m c b)
    (hfin := fun c s' => by
      iintro ⟨⟨Hh, -⟩, HSI⟩
      unfold StableHlo.held
      imodintro
      iapply (pointsTo_read_all (Pipeline.ucRefs τ sig) (fun b => (((c : Thread nD τ)).1, b)) (WL3 m c) s')
      isplitl [Hh] <;> iassumption)
    (hQ := fun s h c => h c)

/-! ## The arguments end as launched -/

theorem WL3_of (c : Dev nD) (r : Ref sig .tc) (h : r ∉ hostOps2_W) : WL3 m c r = WL2 m c r :=
  StableHlo.after_of_writes_sub hostOps2 _ hostOps2_writes h

/-- `x`: untouched by the host tail; an input of the second region; bypasses the first. -/
theorem WL3_main_arg0 (c : Dev nD) : WL3 m c (Proc.devRef .tc main_arg0) = m ((c : Thread nD τ).loc main_arg0) :=
  calc WL3 m c (Proc.devRef .tc main_arg0)
    _ = WL2 m c (Proc.devRef .tc main_arg0) := WL3_of m c main_arg0 (by decide)
    _ = WL1 m c (Proc.devRef .tc main_arg0) := (WL2_arr m c 0).trans (((dat1 (VR1 m) c).arrAt_in 0 rfl _).trans (A_eq1 (VR1 m) c 0))
    _ = WL0 m c (Proc.devRef .tc main_arg0) := WL1_of_ne m c main_arg0 (by decide)
    _ = m ((c : Thread nD τ).loc main_arg0) := rfl

/-- `W`: untouched by the host tail; bypasses the second region; an input of the first. -/
theorem WL3_main_arg1 (c : Dev nD) : WL3 m c (Proc.devRef .tc main_arg1) = m ((c : Thread nD τ).loc main_arg1) :=
  calc WL3 m c (Proc.devRef .tc main_arg1)
    _ = WL2 m c (Proc.devRef .tc main_arg1) := WL3_of m c main_arg1 (by decide)
    _ = WL1 m c (Proc.devRef .tc main_arg1) := WL2_of_ne m c main_arg1 (by decide)
    _ = WL0 m c (Proc.devRef .tc main_arg1) := (WL1_arr m c 0).trans (((dat0 (VR0 m) c).arrAt_in 0 rfl _).trans (A_eq0 (VR0 m) c 0))
    _ = m ((c : Thread nD τ).loc main_arg1) := rfl

/-- `b`: read by the host tail only. -/
theorem WL3_main_arg2 (c : Dev nD) : WL3 m c (Proc.devRef .tc main_arg2) = m ((c : Thread nD τ).loc main_arg2) :=
  calc WL3 m c (Proc.devRef .tc main_arg2)
    _ = WL2 m c (Proc.devRef .tc main_arg2) := WL3_of m c main_arg2 (by decide)
    _ = WL1 m c (Proc.devRef .tc main_arg2) := WL2_of_ne m c main_arg2 (by decide)
    _ = WL0 m c (Proc.devRef .tc main_arg2) := WL1_of_ne m c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (WL3_main_arg0 m c),
     (h c _ (mem_uc main_arg1 (by decide))).trans (WL3_main_arg1 m c),
     (h c _ (mem_uc main_arg2 (by decide))).trans (WL3_main_arg2 m c)⟩) (run_all m ρ)

end Cert.Kernel.Hand

end
-- ==== Proof.KI.R0Shared.lean ====
/-
  The column-sum region (the first kernel launch): what its three control cases share.

  The kernel visits the 8 row blocks of `W` in order. At the first block it clears an accumulator row kept in scratch
  memory; at every block it adds the block's column sums to the accumulator; at the last block it copies the accumulator
  into the output row. So a grid point is in one of three cases — first (clear, add), middle (add), last (add, copy out) —
  selected by two conditions on the block number, decided here over the grid in closed form. The output window is idle
  (neither stored into nor written back) at every point but the last. Everything is stated at a parameter `V`: the buffer
  contents when the region is entered.
-/
import proofs.«154303_j57415122812994_1_alg».proof.Proof.Gen.KernelIdeal.Launch
import proofs.«154303_j57415122812994_1_alg».proof.Proof.Gen.KernelIdeal.Skeleton
import proofs.«154303_j57415122812994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds row block `t` of `W` at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the block number -/

/-- "This is the first block": the body's first conditional, as the kernel computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last block": the body's second conditional. -/
abbrev cond0_1 (i : grid0.Coords) : Prop := k0_cond2 i = 1#1
/-- It holds at point 7 only. -/
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

/-- The input window is never idle. -/
theorem liveAt0_0 : ∀ t : Fin cfg0.N, cfg0.idle 0 (grid0.coords t) = false := by decide +kernel
/-- Before the last block the output window is idle: nothing is stored into it, -/
theorem idleAt0_1 : ∀ t : Fin cfg0.N, ¬cond0_1 (grid0.coords t) → cfg0.idle 1 (grid0.coords t) = true := by decide +kernel
/-- and it is not written back. -/
theorem noFlush0_1 : ∀ t : Fin cfg0.N, ¬cond0_1 (grid0.coords t) → (cfg0.win 1).flush t = false := by decide +kernel
/-- At the last block it is live. -/
theorem liveAt0_1 : ∀ t : Fin cfg0.N, cond0_1 (grid0.coords t) → cfg0.idle 1 (grid0.coords t) = false := by decide +kernel

/-! ## The memrefs the body is called with -/

/-- The output window's one staging buffer as a view: what it holds is stated through it. -/
abbrev VO0_1 : View sig .tc .vmem S1x2048 .f32 := (Memref.whole cc0_stg1_0 : Memref sig .tc .vmem S1x2048 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The accumulator row: a whole scoped buffer of the kernel's own, passed beside the windows. -/
abbrev scM0_0 : Memref sig .tc .vmem S1x2048 .f32 := Memref.whole cc0_scratch0
/-- The same as a view. -/
abbrev VS0_0 : View sig .tc .vmem S1x2048 .f32 := scM0_0.view

/-- What the region hands its body besides the windows — every scoped buffer no window stages at some contents, and the
    generator register at some state — with the accumulator named apart from the staging buffers of the other region. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.KernelIdeal.Hand

end
-- ==== Proof.KI.R0RunA.lean ====
/-
  The column-sum body run whole in its FIRST-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator, found at anything, is cleared and then holds the block's column sums; the output row is
    handed back untouched. -/
noncomputable def kernelRun0_A (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R0RunB.lean ====
/-
  The column-sum body run whole in its MIDDLE-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle block: the accumulator, found at `xs0`, gains the block's column sums; the output row is handed back
    untouched. -/
noncomputable def kernelRun0_B (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R0RunC.lean ====
/-
  The column-sum body run whole in its LAST-block case: on whole staging memrefs — the input block at its contents, the
  output row and the accumulator as the case finds them — the body runs to the continuation, leaving the input as it was and
  the accumulator (and, in the last case, the output row) with the case's stores written. The stores each buffer ends with
  are found by the run itself.
-/
import proofs.«154303_j57415122812994_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block: the accumulator, found at `xs0`, gains the block's column sums, and the output row, found at
    anything, receives the accumulator. -/
noncomputable def kernelRun0_C (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__colsum_kernel i arg1 harg1 arg2 harg2 arg3 harg3) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KI.R0Frame.lean ====
/-
  The column-sum region: what the accumulator and the output row hold after each grid point, the region's invariant, its
  proof data and its body obligation.

  After point `n` the accumulator holds what the case of point `n` leaves, computed from row block `n` of `W` and, past the
  first point, from what the accumulator held after point `n - 1`: a recursion on the point. The output row is stored only
  at the last point, with the accumulator's final contents. The invariant before the first point is the region's generic
  one (every scoped buffer at some contents); before any later point it names the accumulator's contents and carries the
  other region's staging buffers and the generator register along untouched.
-/
import proofs.«154303_j57415122812994_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case stores nothing into the output row: a placeholder that nothing consults (the window is idle there). -/
def out0_A_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) : Vec F S1x2048 .f32 :=
  VO0_1.read (Elt F) (VO0_1.writes (Elt F) VO0_1.junk (kernelRun0_A c i arg1 harg1 arg2 harg2 arg3 harg3 hc0 hc1 x0).1)

/-- The first case's stores into the accumulator cover it. -/
theorem scover0_A_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) (y : S1x2048.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x2048.size (by sl_kernel_rfl) y

/-- What the first case leaves in the accumulator. -/
def sout0_A_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) : Vec F S1x2048 .f32 :=
  VS0_0.read (Elt F) (VS0_0.writes (Elt F) VS0_0.junk (kernelRun0_A c i arg1 harg1 arg2 harg2 arg3 harg3 hc0 hc1 x0).2.1)

/-- A middle case stores nothing into the output row either. -/
def out0_B_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) : Vec F S1x2048 .f32 :=
  VO0_1.read (Elt F) (VO0_1.writes (Elt F) VO0_1.junk (kernelRun0_B c i arg1 harg1 arg2 harg2 arg3 harg3 hc0 hc1 x0 xs0).1)

/-- A middle case's store into the accumulator covers it. -/
theorem scover0_B_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) (y : S1x2048.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x2048.size (by sl_kernel_rfl) y

/-- What a middle case leaves in the accumulator. -/
def sout0_B_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) : Vec F S1x2048 .f32 :=
  VS0_0.read (Elt F) (VS0_0.writes (Elt F) VS0_0.junk (kernelRun0_B c i arg1 harg1 arg2 harg2 arg3 harg3 hc0 hc1 x0 xs0).2.1)

/-- The last case's store into the output row covers it. -/
theorem cover0_C_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) (y : S1x2048.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x2048.size (by sl_kernel_rfl) y

/-- What the last case leaves in the output row. -/
def out0_C_1 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) : Vec F S1x2048 .f32 :=
  VO0_1.read (Elt F) (VO0_1.writes (Elt F) VO0_1.junk (kernelRun0_C c i arg1 harg1 arg2 harg2 arg3 harg3 hc0 hc1 x0 xs0).1)

/-- The last case's store into the accumulator covers it. -/
theorem scover0_C_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) (y : S1x2048.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x2048.size (by sl_kernel_rfl) y

/-- What the last case leaves in the accumulator. -/
def sout0_C_0 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) : Vec F S1x2048 .f32 :=
  VS0_0.read (Elt F) (VS0_0.writes (Elt F) VS0_0.junk (kernelRun0_C c i arg1 harg1 arg2 harg2 arg3 harg3 hc0 hc1 x0 xs0).2.1)

/-! ## What the output row and the accumulator hold after each point -/

/-- THE ACCUMULATION: the pair (output row, accumulator) after the body at position `n` — the case the closed forms select
    at `n`, run on row block `n` and, past the first point, on what the accumulator held after position `n - 1`. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h' => by (try dsimp only at h'); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h' => by (try dsimp only at h'); omega) ((hcond0_1 ⟨0, hn⟩).mp h)) (iblk0 V c 0 ⟨0, hn⟩))
  | n + 1, hn =>
    if h1 : n + 1 = 7 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val = 0) (h1 : ¬t.val = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (by (try dsimp only); omega)

/-- `outsAt0` at a middle point: over what the point before left. -/
theorem outsAt0_B (c : Dev nD) (t : Fin cfg0.N) (h0 : ¬t.val = 0) (h1 : ¬t.val = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The other region's five staging buffers, each whole at some contents: this region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's generic invariant: the accumulator at some contents, the other region's staging buffers, the generator
    register. -/
theorem PhiA0_eq' (c : Dev nD) :
    (Pipeline.ΦA spec0 c : sProp 𝕄) = iprop(iprop((∃ d, owns (c : Thread nD τ) scM0_0 fullShare d) ∗ rest0 c) ∗ (∃ r, prngReg c r)) := by
  rw [PhiA0_eq]; unfold rest0; rfl

/-- The invariant before position `n`: the generic one before the first point; afterwards the accumulator at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The proof data of the column-sum pipeline on core `c`: the arrays as the region finds them; after the body at point
    `t` the input's buffer at row block `t` and the output row at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator
    at what the point before left (at anything at the first point) and takes it back at this point's contents; the other
    region's staging buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  by_cases h1 : t.val = 7
  · have h0 : ¬t.val = 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [outsAt0_C V c t h0 h1]
    unfold out0_C_1 sout0_C_0; (try dsimp only)
    rw [PhiS_castSucc V c t, PhiS_pos V c _ _ h0]
    iintro ⟨⟨⟨HS0, Hr⟩, Hg⟩, Ho, ⟨%d0, H0⟩, ⟨%d1, H1⟩⟩
    iapply ((kernelRun0_C c (grid0.coords t) _ _ _ _ _ _ (fun h => h0 ((hcond0_0 t).mp h)) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _)
        iexact Hr
      iexact Hg
    isplitl [Ho]; · iexact Ho
    isplitl [H0]; · iexact H0
    unfold owns; iexists _; isplitr
    swap; · iexact H1
    ipureintro; exact View.read_writes_of_cover _ _ _ _ _ (cover0_C_1 c _ _ _ _ _ _ _ _ _ _ _)
  · rw [Dat.leavesExact_idle (dat0 V c) 1 t (idleAt0_1 t (fun h => h1 ((hcond0_1 t).mp h))) (noFlush0_1 t (fun h => h1 ((hcond0_1 t).mp h)))]
    by_cases h0 : t.val = 0
    · rw [outsAt0_A V c t h0 h1]
      unfold sout0_A_0; (try dsimp only)
      rw [PhiS_castSucc V c t, PhiS_zero V c _ _ h0, PhiA0_eq']
      iintro ⟨⟨⟨HS0, Hr⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _)
          iexact Hr
        iexact Hg
      isplitl [Ho]; · iexact Ho
      isplitl [H0]; · iexact H0
      iexists _; iexact H1
    · rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands its body at entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the generic one back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hr⟩, Hg⟩
  isplitl [HS0 Hr]
  · isplitl [HS0]
    · iexists _; iexact HS0
    iexact Hr
  iexact Hg

end Cert.KernelIdeal.Hand

end
-- ==== Proof.KI.Region1.lean ====
/- Region 1 of @main (the row-times-vector kernel, pipeline 1), at a PARAMETER `V`: the TensorCore's buffer
   contents when the region is entered. Each window's block at a grid point is read off its array; the body
   leaves both input buffers as found and the output buffer at the payload of the two input blocks; the proof
   data states exactly that, and the body obligation holds at every grid point. Everything here is generic in
   the float interpretation. -/
import proofs.«154303_j57415122812994_1_alg».proof.Proof.Gen.KernelIdeal.Launch
import proofs.«154303_j57415122812994_1_alg».proof.Proof.Gen.KernelIdeal.Skeleton
import proofs.«154303_j57415122812994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the matrix, one block of 1024 rows per point) holds its block at every point, for ANY proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the vector, the whole array, its block index constant) holds its block at every point, fetched
    there or not: where it is not fetched the index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S1024x2048 := Rect.unit (s := S1024x2048) ![0, 0] S1024x2048.size inb_S1024x2048_S1024x2048_0_0
abbrev r1_1 : Rect S1x2048 := Rect.unit (s := S1x2048) ![0, 0] S1x2048.size inb_S1x2048_S1x2048_0_0
abbrev r1_2 : Rect S1024x1 := Rect.unit (s := S1024x1) ![0, 0] S1024x1.size inb_S1024x1_S1024x1_0_0

/-! ## What the body leaves in the output window's buffer -/

/-- Window 2's staging buffer after the body, from the two input blocks: its one store, of the whole block, of the
    payload of the two whole-block loads. -/
def out1_2 (x0 : Vec F S1024x2048 .f32) (x1 : Vec F S1x2048 .f32) : Vec F S1024x1 .f32 :=
  View.canon [⟨r1_2, k1_pay1 (View.ld x0 r1_0) (View.ld x1 r1_1)⟩]

/-- The one store tiles the buffer, so it covers it. -/
theorem cover1_2 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

/-! ## The body's triple -/

set_option maxHeartbeats 1000000 in
/-- The kernel body on whole staging memrefs, the inputs' at contents `x0`, `x1` and the output's at anything, runs
    to the continuation holding the inputs' as they were and the output's at `out1_2 x0 x1`: it loads the two input
    blocks, loads the output buffer without using what it read, and stores the payload over the whole output buffer. -/
theorem sound_kernel1 (c : Dev nD) (E : Set ℕ) (i : grid1.Coords) (arg1 : Memref sig .tc .vmem S1024x2048 .f32) (harg1 : arg1.IsWhole) (arg2 : Memref sig .tc .vmem S1x2048 .f32) (harg2 : arg2.IsWhole) (arg3 : Memref sig .tc .vmem S1024x1 .f32) (harg3 : arg3.IsWhole)
    (x0 : Vec F S1024x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matvec_kernel i arg1 harg1 arg2 harg2 arg3 harg3) K := by
  simp only [cc1__matvec_kernel_eq_skeleton]; unfold cc1__matvec_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The whole program run: the column-sum region, the row-dot region, then the host's bias sum and final addition.

  Between two items of the program every unscoped buffer of the core is held at a named valuation: the launch memory; then
  the first region's arrays at what its write-backs leave (its output row at the accumulated column sums), everything else
  as before; then the same for the second region; then the host operations applied. Every weakly fair execution
  terminates, and the final memory holds every unscoped buffer at the last valuation — from which both the frame (the
  arguments are unchanged) and the value of the result are read.
-/
import proofs.«154303_j57415122812994_1_alg».proof.Proof.KI.R0Frame
import proofs.«154303_j57415122812994_1_alg».proof.Proof.KI.Region1
import proofs.«154303_j57415122812994_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev WL0 : Dev nD → Valuation τ sig (Elt F) := fun c b => m (c, b)
/-- The same read at the core's references: what the first region's proof data take. -/
abbrev VR0 : (c : Dev nD) → (b : Ref sig .tc) → Buf (Elt F) ((c : Thread nD τ).loc b) := fun c b => WL0 m c b
/-- After the first region: its arrays at what the pipeline leaves, every other buffer as entered. -/
def WL1 (c : Dev nD) : Valuation τ sig (Elt F) :=
  Pipeline.withArrays spec0 c (WL0 m c) fun w => (dat0 (VR0 m) c).arrAt w cfg0.N
theorem WL1_arr (c : Dev nD) (w : Fin cfg0.W) :
    WL1 m c (Proc.devRef .tc (Pipeline.arrRef spec0 w)) = (dat0 (VR0 m) c).arrAt w cfg0.N := by
  unfold WL1; exact Pipeline.withArrays_arr spec0 launch0.win.arr_inj c _ _ w
theorem WL1_of_ne (c : Dev nD) (b : Ref sig .tc) (hb : ∀ w, Pipeline.arrRef spec0 w ≠ b) :
    WL1 m c (Proc.devRef .tc b) = WL0 m c (Proc.devRef .tc b) := by
  unfold WL1; exact Pipeline.withArrays_of_ne spec0 c _ _ b hb
abbrev VR1 : (c : Dev nD) → (b : Ref sig .tc) → Buf (Elt F) ((c : Thread nD τ).loc b) := fun c b => WL1 m c b
theorem hF0 (c : Dev nD) (w : Fin cfg0.W) : (dat0 (VR0 m) c).arrAt w cfg0.N = VR1 m c (Pipeline.arrRef spec0 w) :=
  (WL1_arr m c w).symm
theorem hrest0 (c : Dev nD) : ∀ b, b ∉ Finset.univ.image (Pipeline.arrRef spec0) → VR1 m c b = VR0 m c b :=
  fun b hb => WL1_of_ne m c b fun w e => hb (Finset.mem_image.mpr ⟨w, Finset.mem_univ _, e⟩)

/-- After the second region: its arrays at what the pipeline leaves, every other buffer as entered. -/
def WL2 (c : Dev nD) : Valuation τ sig (Elt F) :=
  Pipeline.withArrays spec1 c (WL1 m c) fun w => (dat1 (VR1 m) c).arrAt w cfg1.N
theorem WL2_arr (c : Dev nD) (w : Fin cfg1.W) :
    WL2 m c (Proc.devRef .tc (Pipeline.arrRef spec1 w)) = (dat1 (VR1 m) c).arrAt w cfg1.N := by
  unfold WL2; exact Pipeline.withArrays_arr spec1 launch1.win.arr_inj c _ _ w
theorem WL2_of_ne (c : Dev nD) (b : Ref sig .tc) (hb : ∀ w, Pipeline.arrRef spec1 w ≠ b) :
    WL2 m c (Proc.devRef .tc b) = WL1 m c (Proc.devRef .tc b) := by
  unfold WL2; exact Pipeline.withArrays_of_ne spec1 c _ _ b hb
abbrev VR2 : (c : Dev nD) → (b : Ref sig .tc) → Buf (Elt F) ((c : Thread nD τ).loc b) := fun c b => WL2 m c b
theorem hF1 (c : Dev nD) (w : Fin cfg1.W) : (dat1 (VR1 m) c).arrAt w cfg1.N = VR2 m c (Pipeline.arrRef spec1 w) :=
  (WL2_arr m c w).symm
theorem hrest1 (c : Dev nD) : ∀ b, b ∉ Finset.univ.image (Pipeline.arrRef spec1) → VR2 m c b = VR1 m c b :=
  fun b hb => WL2_of_ne m c b fun w e => hb (Finset.mem_image.mpr ⟨w, Finset.mem_univ _, e⟩)

/-- After the host operations. -/
abbrev WL3 : Dev nD → Valuation τ sig (Elt F) := fun c => StableHlo.after hostOps2 (WL2 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)
/-- The host operations as a segment over the unscoped references from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register. -/
abbrev Tₙr (c : Dev nD) : sProp 𝕄 := iprop(StableHlo.held (c : Thread nD τ) (Pipeline.ucRefs τ sig) (WL3 m c) ∗ ∃ r, prngReg c r)

/-! ## The first region's invariant at its two ends -/

/-- At entry: the scoped buffers no window stages and the generator register make the invariant before the first point. -/
theorem hin0' (V : (c : Dev nD) → (b : Ref sig .tc) → Buf (Elt F) ((c : Thread nD τ).loc b)) (c : Dev nD) :
    (iprop(Pipeline.scopedRest spec0 c ∗ ∃ r, prngReg c r) : sProp 𝕄) ⊢ (dat0 V c).Φ 0 := by
  have h := hin0 V c; unfold Pipeline.ΦA at h; exact h

/-- At exit: the invariant after the last point gives them back. -/
theorem hout0' (V : (c : Dev nD) → (b : Ref sig .tc) → Buf (Elt F) ((c : Thread nD τ).loc b)) (c : Dev nD) :
    (dat0 V c).Φ (Fin.last cfg0.N) ⊢ (iprop(Pipeline.scopedRest spec0 c ∗ ∃ r, prngReg c r) : sProp 𝕄) := by
  have h := hout0 V c; unfold Pipeline.ΦA at h; exact h

/-! ## The regions as segments -/

set_option backward.isDefEq.respectTransparency.types false in
/-- Region 0 as a segment: entered from every unscoped buffer at `WL0`, left at `WL1`. Its windows' arrays are split
    out of the unscoped buffers at entry and put back at their final contents at exit; the generator register goes into
    the region's invariant and comes back; nothing is owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ Lr lvr 0 fun _ _ => rfl
  pre c := iprop(StableHlo.held (c : Thread nD τ) (Pipeline.ucRefs τ sig) (WL0 m c) ∗ Rr c)
  post c := iprop(StableHlo.held (c : Thread nD τ) (Pipeline.ucRefs τ sig) (WL1 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR0 m) c).Φ 0 from rfl]
    iintro ⟨Hp, -, Hr⟩
    iapply (hin0' (VR0 m) c)
    isplitl [Hr]; · iexact Hr
    iexact Hp
  hout c := by
    rw [Pipeline.ownSems0_none]
    rw [show (pdats m 0 c).Φ (Fin.last _) = (dat0 (VR0 m) c).Φ (Fin.last cfg0.N) from rfl]
    iintro HP
    ihave H := (hout0' (VR0 m) c) $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `WL1`, left at `WL2`. Its windows' arrays are split
    out of the unscoped buffers at entry and put back at their final contents at exit; the generator register goes into
    the region's invariant and comes back; nothing is owed; the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ Lr lvr 1 fun _ _ => rfl
  pre c := iprop(StableHlo.held (c : Thread nD τ) (Pipeline.ucRefs τ sig) (WL1 m c) ∗ Rr c)
  post c := iprop(StableHlo.held (c : Thread nD τ) (Pipeline.ucRefs τ sig) (WL2 m c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VR2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three items in order: the two regions, then the host operations. -/
abbrev rsegs : List (Pipeline.Seg (pcfgs (F := F)) adm (pdats m) () defs₀ 𝒱r Lr lvr) :=
  [ .region (reg0 m),
    .region (reg1 m),
    .host (hsegr hostOps2 hostOps2_sub hostOps2_fresh (WL2 m)) ]
/-- The program IS the run of the segments. -/
theorem main_run (c : Dev nD) : main (F := F) c = Pipeline.Seg.run (rsegs m) := (main_chain c).trans (by chain_rfl)

set_option backward.isDefEq.respectTransparency.types false in
/-- THE RUN. From any memory with zero counters, every weakly fair execution of the program terminates, nothing
    faulting, and every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WL3 m c b) :=
  Pipeline.θ_run_regions_kit (pcfgs (F := F)) adm (pdats m) () cellOf_inj emb₁ defs₀ 𝒱r Lr lvr m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WL0 m c) ∗ Rr c)) (Tₙ := Tₙr m)
    (hch := ⟨fun _ => .rfl, fun _ => .rfl, fun _ => .rfl, fun c => by
      show iprop(StableHlo.held (c : Thread nD τ) (Pipeline.ucRefs τ sig) (WL3 m c) ∗ Rr c) ⊢ iprop(Tₙr m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (WL0 m c)
        from Pipeline.unscopedBufs_held c (WL0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WL3 m c b)
    (hfin := fun c s' => by
      iintro ⟨⟨Hh, -⟩, HSI⟩
      unfold StableHlo.held
      imodintro
      iapply (pointsTo_read_all (Pipeline.ucRefs τ sig) (fun b => (((c : Thread nD τ)).1, b)) (WL3 m c) s')
      isplitl [Hh] <;> iassumption)
    (hQ := fun s h c => h c)

/-! ## The arguments end as launched -/

theorem WL3_of (c : Dev nD) (r : Ref sig .tc) (h : r ∉ hostOps2_W) : WL3 m c r = WL2 m c r :=
  StableHlo.after_of_writes_sub hostOps2 _ hostOps2_writes h

/-- `x`: untouched by the host tail; an input of the second region; bypasses the first. -/
theorem WL3_main_arg0 (c : Dev nD) : WL3 m c (Proc.devRef .tc main_arg0) = m ((c : Thread nD τ).loc main_arg0) :=
  calc WL3 m c (Proc.devRef .tc main_arg0)
    _ = WL2 m c (Proc.devRef .tc main_arg0) := WL3_of m c main_arg0 (by decide)
    _ = WL1 m c (Proc.devRef .tc main_arg0) := (WL2_arr m c 0).trans (((dat1 (VR1 m) c).arrAt_in 0 rfl _).trans (A_eq1 (VR1 m) c 0))
    _ = WL0 m c (Proc.devRef .tc main_arg0) := WL1_of_ne m c main_arg0 (by decide)
    _ = m ((c : Thread nD τ).loc main_arg0) := rfl

/-- `W`: untouched by the host tail; bypasses the second region; an input of the first. -/
theorem WL3_main_arg1 (c : Dev nD) : WL3 m c (Proc.devRef .tc main_arg1) = m ((c : Thread nD τ).loc main_arg1) :=
  calc WL3 m c (Proc.devRef .tc main_arg1)
    _ = WL2 m c (Proc.devRef .tc main_arg1) := WL3_of m c main_arg1 (by decide)
    _ = WL1 m c (Proc.devRef .tc main_arg1) := WL2_of_ne m c main_arg1 (by decide)
    _ = WL0 m c (Proc.devRef .tc main_arg1) := (WL1_arr m c 0).trans (((dat0 (VR0 m) c).arrAt_in 0 rfl _).trans (A_eq0 (VR0 m) c 0))
    _ = m ((c : Thread nD τ).loc main_arg1) := rfl

/-- `b`: read by the host tail only. -/
theorem WL3_main_arg2 (c : Dev nD) : WL3 m c (Proc.devRef .tc main_arg2) = m ((c : Thread nD τ).loc main_arg2) :=
  calc WL3 m c (Proc.devRef .tc main_arg2)
    _ = WL2 m c (Proc.devRef .tc main_arg2) := WL3_of m c main_arg2 (by decide)
    _ = WL1 m c (Proc.devRef .tc main_arg2) := WL2_of_ne m c main_arg2 (by decide)
    _ = WL0 m c (Proc.devRef .tc main_arg2) := WL1_of_ne m c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (WL3_main_arg0 m c),
     (h c _ (mem_uc main_arg1 (by decide))).trans (WL3_main_arg1 m c),
     (h c _ (mem_uc main_arg2 (by decide))).trans (WL3_main_arg2 m c)⟩) (run_all m ρ)

end Cert.KernelIdeal.Hand

end
-- ==== Proof.KI.R0Pieces.lean ====
/-
  The column-sum region: what each case leaves, as the body's arithmetic of what it found.

  The accumulator after a point is `acc + colsums(block)` of the accumulator before it and the point's row block; at the
  first point the accumulator it adds to is the cleared one. The output row, stored at the last point only, receives that
  point's accumulator. Hence the recursion: the accumulator after point 0 is `zeros + colsums(block 0)`, after point `n + 1`
  it is `(accumulator after n) + colsums(block n + 1)`.
-/
import proofs.«154303_j57415122812994_1_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- First case: the cleared accumulator plus the block's column sums. -/
theorem sout0_A_0_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : cond0_0 i) (hc1 : ¬cond0_1 i)
    (x0 : Vec F S1024x2048 .f32) :
    sout0_A_0 c i arg1 harg1 arg2 harg2 arg3 harg3 hc0 hc1 x0 = k0_pay2 k0_pay1 x0 := by
  unfold sout0_A_0
  rw [View.read_writes_eq_canon _ _ _ (scover0_A_0 c i arg1 harg1 arg2 harg2 arg3 harg3 hc0 hc1 x0)]
  unfold kernelRun0_A
  dsimp only
  sl_unfold_words
  refine (View.canon_cons_unit_zero (S := S1x2048) hz0 _ _ _).trans ?_
  rw [View.readCov_unit_zero (S := S1x2048) _ hz0, View.readAt_eq_ld, harg1.read_unread, View.ld_unit_zero (S := S1024x2048) hz0]

/-- Middle case: the accumulator found plus the block's column sums. -/
theorem sout0_B_0_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : ¬cond0_1 i)
    (x0 : Vec F S1024x2048 .f32) (xs0 : Vec F S1x2048 .f32) :
    sout0_B_0 c i arg1 harg1 arg2 harg2 arg3 harg3 hc0 hc1 x0 xs0 = k0_pay2 xs0 x0 := by
  unfold sout0_B_0
  rw [View.read_writes_eq_canon _ _ _ (scover0_B_0 c i arg1 harg1 arg2 harg2 arg3 harg3 hc0 hc1 x0 xs0)]
  unfold kernelRun0_B
  dsimp only
  sl_unfold_words
  refine (View.canon_unit_zero (S := S1x2048) hz0 _ _).trans ?_
  rw [View.readAt_eq_ld, View.readAt_eq_ld, harg1.read_unread, harg3.read_unread,
    View.ld_unit_zero (S := S1x2048) hz0, View.ld_unit_zero (S := S1024x2048) hz0]

/-- Last case, the accumulator: as in a middle case. -/
theorem sout0_C_0_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) :
    sout0_C_0 c i arg1 harg1 arg2 harg2 arg3 harg3 hc0 hc1 x0 xs0 = k0_pay2 xs0 x0 := by
  unfold sout0_C_0
  rw [View.read_writes_eq_canon _ _ _ (scover0_C_0 c i arg1 harg1 arg2 harg2 arg3 harg3 hc0 hc1 x0 xs0)]
  unfold kernelRun0_C
  dsimp only
  sl_unfold_words
  refine (View.canon_unit_zero (S := S1x2048) hz0 _ _).trans ?_
  rw [View.readAt_eq_ld, View.readAt_eq_ld, harg1.read_unread, harg3.read_unread,
    View.ld_unit_zero (S := S1x2048) hz0, View.ld_unit_zero (S := S1024x2048) hz0]

/-- Last case, the output row: the accumulator just stored. -/
theorem out0_C_1_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x2048 .f32) (harg3 : arg3.IsWhole) (hc0 : ¬cond0_0 i) (hc1 : cond0_1 i)
    (x0 : Vec F S1024x2048 .f32) (xs0 : Vec F S1x2048 .f32) :
    out0_C_1 c i arg1 harg1 arg2 harg2 arg3 harg3 hc0 hc1 x0 xs0 = k0_pay2 xs0 x0 := by
  unfold out0_C_1
  rw [View.read_writes_eq_canon _ _ _ (cover0_C_1 c i arg1 harg1 arg2 harg2 arg3 harg3 hc0 hc1 x0 xs0)]
  unfold kernelRun0_C
  dsimp only
  sl_unfold_words
  refine (View.canon_unit_zero (S := S1x2048) hz0 _ _).trans ?_
  rw [View.readCov_unit_zero (S := S1x2048) _ hz0, View.readAt_eq_ld, View.readAt_eq_ld, harg1.read_unread, harg3.read_unread,
    View.ld_unit_zero (S := S1x2048) hz0, View.ld_unit_zero (S := S1024x2048) hz0]

/-! ## The accumulator's recursion -/

/-- After the first point: the cleared row plus block 0's column sums. -/
theorem acc0_first (c : Dev nD) (t : Fin cfg0.N) (h0 : t.val = 0) :
    (outsAt0 V c t.val t.isLt).2 = k0_pay2 k0_pay1 (iblk0 V c 0 t) := by
  have hN : t.val < 8 := lt_of_lt_of_eq t.isLt (show cfg0.N = 8 from N_0)
  have h1 : ¬t.val = 7 := by omega
  rw [outsAt0_A V c t h0 h1]
  dsimp only
  exact sout0_A_0_eq c (grid0.coords t) (ms0_0 t) (hs0_0 t) (ms0_1 t) (hs0_1 t) scM0_0 (Memref.isWhole_whole _) ((hcond0_0 t).mpr h0) (fun h => h1 ((hcond0_1 t).mp h)) (iblk0 V c 0 t)

/-- After a later point: what the point before left plus the point's block's column sums. -/
theorem acc0_later (c : Dev nD) (t : Fin cfg0.N) (h0 : ¬t.val = 0) :
    (outsAt0 V c t.val t.isLt).2 = k0_pay2 (outsAt0 V c (t.val - 1) (Nat.lt_of_le_of_lt (Nat.sub_le _ _) t.isLt)).2 (iblk0 V c 0 t) := by
  by_cases h1 : t.val = 7
  · rw [outsAt0_C V c t h0 h1]
    dsimp only
    exact sout0_C_0_eq c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2
  · rw [outsAt0_B V c t h0 h1]
    dsimp only
    exact sout0_B_0_eq c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2

/-- The same at positions: after point 0, -/
theorem acc0_zero (c : Dev nD) (hn : 0 < cfg0.N) :
    (outsAt0 V c 0 hn).2 = k0_pay2 k0_pay1 (iblk0 V c 0 ⟨0, hn⟩) :=
  acc0_first V c ⟨0, hn⟩ rfl

/-- and after point `n + 1`. -/
theorem acc0_succ (c : Dev nD) (n : ℕ) (hn : n + 1 < cfg0.N) :
    (outsAt0 V c (n + 1) hn).2 = k0_pay2 (outsAt0 V c n (Nat.lt_of_succ_lt hn)).2 (iblk0 V c 0 ⟨n + 1, hn⟩) :=
  acc0_later V c ⟨n + 1, hn⟩ (Nat.succ_ne_zero n)

/-- The output row at the last point is that point's accumulator. -/
theorem out0_last (c : Dev nD) (t : Fin cfg0.N) (h1 : t.val = 7) :
    (outsAt0 V c t.val t.isLt).1 = (outsAt0 V c t.val t.isLt).2 := by
  have h0 : ¬t.val = 0 := by omega
  rw [outsAt0_C V c t h0 h1]
  dsimp only
  exact (out0_C_1_eq c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2).trans
    (sout0_C_0_eq c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2).symm

end Cert.KernelIdeal.Hand

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KI.Value0.lean ====
/-
  The column-sum region on the extended reals: the output row ends holding, in column `i`, the sum of column `i` of `W`
  over all 8192 rows.

  One step of the body adds to the accumulator, column by column, the sum of the 1024 entries of the block's column; the
  cleared accumulator is zero. So after point `n` column `i` of the accumulator is the running total, over the row blocks
  `0 … n`, of the blocks' column sums; after the last block that is the sum over all blocks of the sums inside each block,
  which is the sum over all rows. Only additions of a commutative monoid are used: nothing here needs finite entries.
-/
import proofs.«154303_j57415122812994_1_alg».proof.Proof.KI.R0Pieces
import proofs.«154303_j57415122812994_1_alg».proof.Proof.LibAxisSums
import proofs.«154303_j57415122812994_1_alg».proof.Proof.LibRunningTotal
import proofs.«154303_j57415122812994_1_alg».proof.Proof.LibTileSum
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The body's arithmetic at an index -/

/-- The cleared accumulator is zero everywhere. -/
theorem pay1_apply (i : Fin 2048) : k0_pay1 (F := Ideal) (ix2 (0 : Fin 1) i) = 0 := by
  unfold k0_pay1
  rw [shapeCast_self]
  exact Ideal.ofBits_zero_f32

/-- One step: column `i` of the new accumulator is column `i` of the old one plus the sum of the block's column `i`. -/
theorem pay2_apply (s : Vec Ideal S1x2048 .f32) (x : Vec Ideal S1024x2048 .f32) (i : Fin 2048) :
    k0_pay2 (F := Ideal) s x (ix2 (0 : Fin 1) i) = s (ix2 (0 : Fin 1) i) + ∑ r : Fin 1024, x (ix2 r i) := by
  unfold k0_pay2
  dsimp only
  rw [shapeCast_self]
  show s (ix2 (0 : Fin 1) i) + _ = _
  refine congrArg (s (ix2 (0 : Fin 1) i) + ·) ?_
  refine (shapeCast_a_1a_apply _ _ (0 : Fin 1) i).trans ?_
  exact Cert.LibAxisSums.multiReduction_add_firstAxis_apply x _ _ _ _ i

/-! ## Row block `t` of `W` -/

theorem h8 : 8 * 1024 = 8192 := by norm_num

/-- Entry `(o, i)` of a weight array. -/
def wEntry (W : S8192x2048.Idx → EReal) (o : Fin 8192) (i : Fin 2048) : EReal := W (ix2 o i)

/-- Column `i` of a weight array summed inside row block `s`. -/
def blockColSum (W : S8192x2048.Idx → EReal) (i : Fin 2048) (s : Fin 8) : EReal :=
  ∑ p : Fin 1024, wEntry W (TileSum.idx h8 s p) i

/-- The column sums of a weight array, as a row. -/
def colSumsOf (W : S8192x2048.Idx → EReal) : S1x2048.Idx → EReal :=
  fun j => ∑ o : Fin 8192, wEntry W o ⟨(j 1).val, idx2_lt1 j⟩

/-- The input window's block index at point `t` is `(t, 0)`. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, i)` of row block `t` is entry `(1024·t + r, i)` of `W`. -/
theorem blk0_apply (c : Dev nD) (t : Fin cfg0.N) (ht : t.val < 8) (r : Fin 1024) (i : Fin 2048) :
    @Eq EReal (iblk0 V c 0 t (ix2 r i)) (wEntry (V c main_arg1) (TileSum.idx h8 ⟨t.val, ht⟩ r) i) := by
  unfold iblk0 wEntry
  show (V c main_arg1) (((cfg0.win 0).blk t).view.emb (ix2 r i)) = (V c main_arg1) (ix2 (TileSum.idx h8 ⟨t.val, ht⟩ r) i)
  refine congrArg (V c main_arg1) (funext fun a => Fin.ext ?_)
  obtain ⟨e0, e1⟩ := idx0_0 t
  match a with
  | ⟨0, _⟩ => show win0_0.index t (0 : Fin 2) * 1024 + 1 * r.val = t.val * 1024 + r.val; omega
  | ⟨1, _⟩ => show win0_0.index t (1 : Fin 2) * 2048 + 1 * i.val = i.val; omega

/-! ## The accumulator in closed form -/

/-- After point `n`, column `i` of the accumulator is the running total of the blocks' column sums up to block `n`. -/
theorem acc0_closed (c : Dev nD) (i : Fin 2048) : ∀ (n : ℕ) (hn : n < cfg0.N),
    @Eq EReal ((outsAt0 V c n hn).2 (ix2 (0 : Fin 1) i)) (RunningTotal.upTo (blockColSum (V c main_arg1) i) n)
  | 0, hn => by
    rw [acc0_zero, pay2_apply, pay1_apply, zero_add, RunningTotal.upTo_zero _ (by norm_num)]
    exact Finset.sum_congr rfl fun r _ => blk0_apply V c ⟨0, hn⟩ (by norm_num) r i
  | n + 1, hn => by
    have hN : n + 1 < 8 := lt_of_lt_of_eq hn (show cfg0.N = 8 from N_0)
    rw [acc0_succ, pay2_apply, acc0_closed c i n (Nat.lt_of_succ_lt hn), RunningTotal.upTo_succ _ _ hN]
    refine congrArg (RunningTotal.upTo (blockColSum (V c main_arg1) i) n + ·) ?_
    exact Finset.sum_congr rfl fun r _ => blk0_apply V c ⟨n + 1, hn⟩ hN r i

/-- After the last block the running total is the sum of the whole column. -/
theorem colTotal (c : Dev nD) (i : Fin 2048) :
    RunningTotal.upTo (blockColSum (V c main_arg1) i) 7 = ∑ o : Fin 8192, wEntry (V c main_arg1) o i := by
  rw [RunningTotal.upTo_last _ 7 (by norm_num)]
  exact (TileSum.sum_axis h8 (fun o : Fin 8192 => wEntry (V c main_arg1) o i)).symm

/-! ## The output row after the region -/

/-- The output window's block index is `(0, 0)` at every point. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- An index of the output array is in point `t`'s block iff each coordinate is in the block's range on its axis. -/
theorem mem_blk0_1 (t : Fin cfg0.N) (i : S1x2048.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- What the last point writes back is the column sums. -/
theorem flushed0_1_eq (c : Dev nD) (t : Fin cfg0.N) (hf : (cfg0.win 1).flush t = true) :
    (dat0 V c).flushed 1 t = ((cfg0.win 1).blk t).view.read (Elt Ideal) (colSumsOf (V c main_arg1)) := by
  have hN : t.val < 8 := lt_of_lt_of_eq t.isLt (show cfg0.N = 8 from N_0)
  have h7 : t.val = 7 := by have := (flush0_1 t).mp hf; omega
  show (cfg0.win 1).cut (grid0.coords t) ((dat0 V c).after 1 t) = _
  rw [after0_1, out0_last V c t h7]
  funext y
  obtain ⟨u, i, rfl⟩ : ∃ (u : Fin 1) (i : Fin 2048), y = ix2 u i := ⟨y 0, y 1, eq_ix2 y⟩
  obtain rfl : u = 0 := Subsingleton.elim _ _
  obtain ⟨e0, e1⟩ := idx0_1 t
  show @Eq EReal ((outsAt0 V c t.val t.isLt).2 (ix2 (0 : Fin 1) i)) (colSumsOf (V c main_arg1) (((cfg0.win 1).blk t).view.emb (ix2 (0 : Fin 1) i)))
  rw [acc0_closed V c i t.val t.isLt, h7, colTotal]
  unfold colSumsOf
  refine Finset.sum_congr rfl fun o _ => congrArg (wEntry (V c main_arg1) o) (Fin.ext ?_)
  show i.val = win0_1.index t (1 : Fin 2) * 2048 + 1 * i.val
  omega

/-- THE OUTPUT ROW after the region: the column sums of `W` as the region found it. -/
theorem final0_1 (c : Dev nD) : (dat0 V c).arrAt 1 cfg0.N = colSumsOf (V c main_arg1) := by
  refine (dat0 V c).arrAt_eq_of_cover 1 (colSumsOf (V c main_arg1)) (fun t hf => flushed0_1_eq V c t hf) fun i => ?_
  have h7 : (7 : ℕ) < cfg0.N := by rw [show cfg0.N = 8 from N_0]; norm_num
  refine ⟨⟨7, h7⟩, (flush0_1 ⟨7, h7⟩).mpr (by norm_num), ?_⟩
  rw [mem_blk0_1]
  obtain ⟨e0, e1⟩ := idx0_1 ⟨7, h7⟩
  have hi0 : (i 0).val < 1 := (i 0).isLt
  have hi1 : (i 1).val < 2048 := (i 1).isLt
  intro a
  match a with
  | ⟨0, _⟩ => show win0_1.index ⟨7, h7⟩ (0 : Fin 2) * 1 ≤ (i 0).val ∧ (i 0).val < win0_1.index ⟨7, h7⟩ (0 : Fin 2) * 1 + 1; omega
  | ⟨1, _⟩ => show win0_1.index ⟨7, h7⟩ (1 : Fin 2) * 2048 ≤ (i 1).val ∧ (i 1).val < win0_1.index ⟨7, h7⟩ (1 : Fin 2) * 2048 + 2048; omega

end Cert.KernelIdeal.Hand

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.KI.Value1.lean ====
/- What region 1 leaves in its output array, read at an index, at the ideal values: row `p` of the result is the
   sum over the 2048 columns of the matrix's row `p` times the vector. The payload at an index is that sum over the
   loaded blocks; block `t` of the matrix is rows `1024·t … 1024·t + 1023` of the array and the vector's block is the
   whole vector; so what point `t` writes back is block `t` of ONE function of the two arrays, and the sixteen blocks
   cover the output array (row `p` lies in the block of point `p / 1024`). -/
import proofs.«154303_j57415122812994_1_alg».proof.Proof.KI.Region1
import proofs.«154303_j57415122812994_1_alg».proof.Proof.LibKeepdims
import proofs.«154303_j57415122812994_1_alg».proof.Proof.LibRowBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The payload at an index -/

/-- The body's payload at row `r` of the block: the sum over the columns of the matrix block's row `r` times the
    vector (the vector spread over the rows, the product taken entry by entry, each row summed, the sums set in a
    column). -/
theorem k1_pay1_apply (x0 : Vec Ideal S1024x2048 .f32) (x1 : Vec Ideal S1x2048 .f32) (r : Fin 1024) (u : Fin 1) :
    k1_pay1 (F := Ideal) x0 x1 (ix2 r u) = ∑ i : Fin 2048, x0 (ix2 r i) * x1 (ix2 (0 : Fin 1) i) := by
  unfold k1_pay1
  refine (Cert.LibKeepdims.shapeCast_a_a1_apply _ _ r u).trans ?_
  refine (Cert.LibKeepdims.multiReduction_add_lastAxis_apply _ _ _ _ _ r).trans ?_
  refine Finset.sum_congr rfl fun i _ => ?_
  refine (mulf_apply _ _ (ix2 r i)).trans ?_
  refine congrArg (x0 (ix2 r i) * ·) ?_
  refine (Cert.LibRowBroadcast.broadcastTo_1b_ab_apply _ _ r i (0 : Fin 1)).trans ?_
  rw [shapeCast_self]

/-! ## The function the output array ends at -/

/-- Row by row, the sum over the columns of the matrix's row times the vector. -/
def rowDot (a0 : S16384x2048.Idx → EReal) (a1 : S1x2048.Idx → EReal) : S16384x1.Idx → EReal :=
  fun j => ∑ i : Fin 2048, a0 (ix2 (⟨(j 0).val, idx2_lt0 j⟩ : Fin 16384) i) * a1 (ix2 (0 : Fin 1) i)

theorem rowDot_apply (a0 : S16384x2048.Idx → EReal) (a1 : S1x2048.Idx → EReal) (p : Fin 16384) (u : Fin 1) :
    rowDot a0 a1 (ix2 p u) = ∑ i : Fin 2048, a0 (ix2 p i) * a1 (ix2 (0 : Fin 1) i) := rfl

section
variable (V : (c : Dev nD) → (b : Ref sig .tc) → Buf (Elt Ideal) ((c : Thread nD τ).loc b))

/-! ## The blocks as rows of the arrays -/

theorem hz : (![0, 0] : Fin 2 → Nat) = fun _ => 0 := funext fun a => by fin_cases a <;> rfl

/-- The printed index maps, decided over the grid: the matrix's and the output's row-block index is the point, their
    column-block index 0; the vector's block index is 0 on both axes. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The matrix window's block at point `t` is rows `1024·t … 1024·t + 1023` of the matrix. -/
theorem iblk1_0_apply (c : Dev nD) (t : Fin cfg1.N) (x : S1024x2048.Idx) (k : S16384x2048.Idx)
    (hk0 : (k 0).val = 1024 * t.val + (x 0).val) (hk1 : (k 1).val = (x 1).val) :
    (iblk1 V c 0 t : Vec Ideal S1024x2048 .f32) x = (V c main_arg0 : S16384x2048.Idx → EReal) k := by
  obtain ⟨e0, e1, -, -, -, -⟩ := idx_facts1 t
  unfold iblk1
  rw [View.read_apply]
  show (V c main_arg0 : S16384x2048.Idx → EReal) _ = (V c main_arg0 : S16384x2048.Idx → EReal) k
  refine congrArg (V c main_arg0 : S16384x2048.Idx → EReal) ?_
  funext a
  apply Fin.ext
  match a with
  | ⟨0, _⟩ => show win1_0.index t 0 * 1024 + 1 * (x 0).val = (k 0).val; rw [e0, hk0]; omega
  | ⟨1, _⟩ => show win1_0.index t 1 * 2048 + 1 * (x 1).val = (k 1).val; rw [e1, hk1]; omega

/-- The vector window's block at every point is the whole vector. -/
theorem iblk1_1_apply (c : Dev nD) (t : Fin cfg1.N) (x : S1x2048.Idx) :
    (iblk1 V c 1 t : Vec Ideal S1x2048 .f32) x = (V c main_v0 : S1x2048.Idx → EReal) x := by
  obtain ⟨-, -, e0, e1, -, -⟩ := idx_facts1 t
  unfold iblk1
  rw [View.read_apply]
  show (V c main_v0 : S1x2048.Idx → EReal) _ = (V c main_v0 : S1x2048.Idx → EReal) x
  refine congrArg (V c main_v0 : S1x2048.Idx → EReal) ?_
  funext a
  apply Fin.ext
  match a with
  | ⟨0, _⟩ => show win1_1.index t 0 * 1 + 1 * (x 0).val = (x 0).val; rw [e0]; omega
  | ⟨1, _⟩ => show win1_1.index t 1 * 2048 + 1 * (x 1).val = (x 1).val; rw [e1]; omega

/-! ## What a point writes back -/

/-- The payload of the two blocks at point `t`, at row `r` of the block, is `rowDot` of the two arrays at row
    `1024·t + r`. -/
theorem pay_blocks_apply (c : Dev nD) (t : Fin cfg1.N) (r : Fin 1024) (u : Fin 1) (j : S16384x1.Idx)
    (hj0 : (j 0).val = 1024 * t.val + r.val) :
    k1_pay1 (F := Ideal) (iblk1 V c 0 t) (iblk1 V c 1 t) (ix2 r u)
      = rowDot (V c main_arg0) (V c main_v0) j := by
  refine (k1_pay1_apply (iblk1 V c 0 t) (iblk1 V c 1 t) r u).trans ?_
  unfold rowDot
  refine Finset.sum_congr rfl fun i _ => ?_
  rw [iblk1_0_apply V c t (ix2 r i) (ix2 (⟨(j 0).val, idx2_lt0 j⟩ : Fin 16384) i) hj0 rfl,
    iblk1_1_apply V c t (ix2 (0 : Fin 1) i)]

/-- WHAT POINT `t` WRITES BACK is block `t` of `rowDot` of the two arrays as the region finds them. -/
theorem flushed1_2_eq (c : Dev nD) (t : Fin cfg1.N) :
    (dat1 (F := Ideal) V c).flushed 2 t
      = ((cfg1.win 2).blk t).view.read (Elt Ideal) (rowDot (V c main_arg0) (V c main_v0)) := by
  show (cfg1.win 2).cut (grid1.coords t) ((dat1 (F := Ideal) V c).after 2 t) = _
  rw [after1_2]
  unfold out1_2
  rw [View.canon_unit_zero hz]
  simp only [View.ld_unit_zero (S := S1024x2048) hz, View.ld_unit_zero (S := S1x2048) hz]
  obtain ⟨-, -, -, -, e0, e1⟩ := idx_facts1 t
  funext y
  have key : ∀ y : S1024x1.Idx, k1_pay1 (F := Ideal) (iblk1 V c 0 t) (iblk1 V c 1 t) y
      = rowDot (V c main_arg0) (V c main_v0) (((cfg1.win 2).blk t).view.emb y) := fun y => by
    obtain ⟨r, u, rfl⟩ : ∃ (r : Fin 1024) (u : Fin 1), y = ix2 r u := ⟨y 0, y 1, eq_ix2 y⟩
    refine pay_blocks_apply V c t r u _ ?_
    show win1_2.index t 0 * 1024 + 1 * r.val = 1024 * t.val + r.val
    rw [e0]; omega
  exact key y

/-! ## The cover, and the array after the run -/

/-- An index of the output array is in point `t`'s block iff each coordinate is in the block's range on its axis. -/
theorem mem_blk1_2 (t : Fin cfg1.N) (i : S16384x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1).slice (win1_2.rect t)).set ↔ _
  rw [View.set_slice_whole, Rect.mem_set_unit]
  exact Iff.rfl

/-- Row `p` of the output array lies in the block of point `p / 1024`, which writes back. -/
theorem cover1_2_arr (i : S16384x1.Idx) :
    ∃ t : Fin cfg1.N, (cfg1.win 2).flush t = true ∧ i ∈ ((cfg1.win 2).blk t).view.set := by
  have hi0 : (i 0).val < 16384 := idx2_lt0 i
  have hi1 : (i 1).val < 1 := idx2_lt1 i
  have hN : cfg1.N = 16 := N_1
  refine ⟨⟨(i 0).val / 1024, by rw [hN]; omega⟩, flush1_2 _, ?_⟩
  obtain ⟨-, -, -, -, e0, e1⟩ := idx_facts1 ⟨(i 0).val / 1024, by rw [hN]; omega⟩
  rw [mem_blk1_2]
  intro a
  match a with
  | ⟨0, _⟩ =>
    show win1_2.index _ (0 : Fin 2) * 1024 ≤ (i 0).val ∧ (i 0).val < win1_2.index _ (0 : Fin 2) * 1024 + 1024
    rw [e0]; show (i 0).val / 1024 * 1024 ≤ (i 0).val ∧ (i 0).val < (i 0).val / 1024 * 1024 + 1024; omega
  | ⟨1, _⟩ =>
    show win1_2.index _ (1 : Fin 2) * 1 ≤ (i 1).val ∧ (i 1).val < win1_2.index _ (1 : Fin 2) * 1 + 1
    rw [e1]; omega

/-- THE OUTPUT ARRAY after the region's write-backs is `rowDot` of the two arrays as the region finds them. -/
theorem arr1_2_eq (c : Dev nD) :
    (dat1 (F := Ideal) V c).arrAt 2 cfg1.N = rowDot (V c main_arg0) (V c main_v0) :=
  (dat1 (F := Ideal) V c).arrAt_eq_of_cover 2 (rowDot (V c main_arg0) (V c main_v0))
    (fun t _ => flushed1_2_eq V c t) cover1_2_arr

/-- THE OUTPUT ARRAY AT A ROW: row `p` is the sum over the columns of the matrix's row `p` times the vector. -/
theorem arr1_2_apply (c : Dev nD) (p : Fin 16384) :
    @Eq EReal ((dat1 (F := Ideal) V c).arrAt 2 cfg1.N (ix2 p (0 : Fin 1)))
      (∑ i : Fin 2048, @HMul.hMul EReal EReal EReal _ (V c main_arg0 (ix2 p i)) (V c main_v0 (ix2 (0 : Fin 1) i))) := by
  rw [arr1_2_eq V c]
  exact rowDot_apply _ _ p 0

end

end Cert.KernelIdeal.Hand

end
-- ==== Proof.Spec.lean ====
/-
  The function both programs compute, on the extended reals: for a batch row `p`,

      out[p] = Σ_i x[p,i] · (Σ_o W[o,i])  +  Σ_o b[o]

  — a linear layer `x · Wᵀ + b` summed over its output axis. Summing the layer's outputs first moves the sum over `o`
  inside: Σ_o (Σ_i x[p,i]·W[o,i] + b[o]) = Σ_i x[p,i]·(Σ_o W[o,i]) + Σ_o b[o], which is distributivity of the
  product over a finite sum and therefore asks for real (finite) entries. Stated over literal shapes, indices built from
  coordinates of literal `Fin` types.
-/
import Idealize.ShloMosaic.PureOps.Ideal
import Idealize.ShloMosaic.Lib.ValueIdx

noncomputable section

namespace Cert.SumLinear

open Idealize.ShloMosaic Idealize.ShloMosaic.ValueIdx

/-- The shapes of the three arguments and of the result. -/
abbrev SX : Shape := ⟨2, ![16384, 2048]⟩
abbrev SW : Shape := ⟨2, ![8192, 2048]⟩
abbrev SB : Shape := ⟨1, ![8192]⟩
abbrev SO : Shape := ⟨2, ![16384, 1]⟩

/-- Column `i` of `W` summed over the output axis. -/
def colSum (W : FVec Ideal SW .f32) (i : Fin 2048) : EReal := ∑ o : Fin 8192, W (ix2 o i)

/-- The sum of the bias. -/
def biasSum (b : FVec Ideal SB .f32) : EReal := ∑ o : Fin 8192, b (ix1 o)

/-- Row `p` of `x` against the column sums. -/
def rowDot (x : FVec Ideal SX .f32) (W : FVec Ideal SW .f32) (p : Fin 16384) : EReal :=
  ∑ i : Fin 2048, x (ix2 p i) * colSum W i

/-- The result array: `out[p, 0] = Σ_i x[p,i]·(Σ_o W[o,i]) + Σ_o b[o]`. -/
def G (x : FVec Ideal SX .f32) (W : FVec Ideal SW .f32) (b : FVec Ideal SB .f32) : FVec Ideal SO .f32 :=
  fun j => rowDot x W ⟨(j 0).val, idx2_lt0 j⟩ + biasSum b

/-- Every entry of an array is a real number. -/
def AllReal {s : Shape} (x : FVec Ideal s .f32) : Prop := ∀ i, ∃ r : ℝ, x i = (r : EReal)

end Cert.SumLinear

end
-- ==== Proof.KI.Value.lean ====
/-
  The idealized kernel's result, on the extended reals, is the specification `G` of the three argument arrays.

  The first region leaves the column sums of `W` in its output row; the second region leaves, in row `p` of its output
  column, the dot product of row `p` of `x` with that row; the host then adds the sum of the bias (a sum started from the
  zero word, so a plain sum) to every row. Read through the valuations between the program's items, the result buffer is
  `out[p] = Σ_i x[p,i]·(Σ_o W[o,i]) + Σ_o b[o]`. Every step is an identity of sums in a commutative monoid: the kernel's
  side of the certificate never needs finite entries.
-/
import proofs.«154303_j57415122812994_1_alg».proof.Proof.KI.Run
import proofs.«154303_j57415122812994_1_alg».proof.Proof.KI.Value0
import proofs.«154303_j57415122812994_1_alg».proof.Proof.KI.Value1
import proofs.«154303_j57415122812994_1_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The host tail -/

/-- The host's last operations as one function of the second region's output and the bias. -/
def hostTail (v1 : FVec Ideal S16384x1 .f32) (b : FVec Ideal S8192 .f32) : FVec Ideal S16384x1 .f32 :=
  addf v1 (broadcastInDim S16384x1 ![] bcast_S_S16384x1
    (Host.reduceAdd (F := Ideal) b (constant (F := Ideal) S_ .f32 0x00000000#32) reducesTo_S8192_S_d0 h_S_))

/-- At an index: the row's entry plus the sum of the bias. -/
theorem hostTail_apply (v1 : FVec Ideal S16384x1 .f32) (b : FVec Ideal S8192 .f32) (j : S16384x1.Idx) :
    hostTail v1 b j = v1 j + Cert.SumLinear.biasSum b := by
  unfold hostTail Cert.SumLinear.biasSum
  rw [addf_apply]
  refine congrArg (v1 j + ·) ?_
  rw [broadcastInDim_apply _ bcast_S_S16384x1 _ j ix0 (fun a => a.elim0)]
  simp only [Host.reduceAdd, Ideal.hostReduceAdd_def]
  rw [Ideal.hostReduceAdd_total reducesTo_S8192_S_d0 (fun a => a.elim0), constant_apply, Ideal.ofBits_zero_f32, zero_add]
  exact Cert.LibAxisSums.sum_idx1 _

variable (m : (ℓ : Loc nD τ sig) → Buf (Elt Ideal) ℓ)

/-- The result buffer after the host tail. -/
theorem WL3_main_v4 (c : Dev nD) :
    @Eq (S16384x1.Idx → EReal) (WL3 m c (Proc.devRef .tc main_v4))
      (hostTail (WL2 m c (Proc.devRef .tc main_v1)) (WL2 m c (Proc.devRef .tc main_arg2))) := by
  unfold hostTail
  show StableHlo.after hostOps2 (WL2 m c) (Proc.devRef .tc main_v4) = _
  after_results
  try rfl

/-- The second region's output column: row `p` of `x` against the column sums of `W`. -/
theorem WL2_main_v1 (c : Dev nD) :
    @Eq (S16384x1.Idx → EReal) (WL2 m c (Proc.devRef .tc main_v1))
      (rowDot (m ((c : Thread nD τ).loc main_arg0)) (colSumsOf (m ((c : Thread nD τ).loc main_arg1)))) := by
  have e2 : WL2 m c (Proc.devRef .tc main_v1) = (dat1 (F := Ideal) (VR1 m) c).arrAt 2 cfg1.N := WL2_arr m c 2
  have e3 := arr1_2_eq (VR1 m) c
  have e4 : VR1 m c main_arg0 = (m ((c : Thread nD τ).loc main_arg0)) := WL1_of_ne m c main_arg0 (by decide)
  have e5 : VR1 m c main_v0 = colSumsOf (m ((c : Thread nD τ).loc main_arg1)) := (WL1_arr m c 1).trans (final0_1 (VR0 m) c)
  rw [e4, e5] at e3
  exact e2.trans e3

/-- The bias reaches the host tail as launched. -/
theorem WL2_main_arg2 (c : Dev nD) : WL2 m c (Proc.devRef .tc main_arg2) = (m ((c : Thread nD τ).loc main_arg2)) :=
  (WL2_of_ne m c main_arg2 (by decide)).trans (WL1_of_ne m c main_arg2 (by decide))

/-- THE KERNEL'S RESULT: the specification of the three argument arrays. -/
theorem kernel_value (c : Dev nD) :
    @Eq (S16384x1.Idx → EReal) (WL3 m c (Proc.devRef .tc main_v4))
      (Cert.SumLinear.G (m ((c : Thread nD τ).loc main_arg0)) (m ((c : Thread nD τ).loc main_arg1)) (m ((c : Thread nD τ).loc main_arg2))) := by
  rw [WL3_main_v4, WL2_main_v1, WL2_main_arg2]
  funext j
  rw [hostTail_apply]
  unfold Cert.SumLinear.G
  refine congrArg (· + Cert.SumLinear.biasSum _) ?_
  unfold rowDot colSumsOf wEntry Cert.SumLinear.rowDot Cert.SumLinear.colSum
  exact Finset.sum_congr rfl fun i _ => rfl

end Cert.KernelIdeal.Hand

end
-- ==== Proof.SumLaw.lean ====
/-
  The algebraic law behind "a linear layer summed over its outputs".

  For real numbers x_i, w_{o,i} and any b_o, over finite index sets,

      Σ_o (Σ_i x_i · w_{o,i} + b_o)  =  Σ_i x_i · (Σ_o w_{o,i})  +  Σ_o b_o.

  Splitting the sum of a sum and exchanging the two summations hold in every commutative additive monoid, so they hold
  on the extended reals as they stand. Taking x_i out of the inner sum is distributivity of the product over a finite
  sum, which the extended reals do not have (with x = −1, w₁ = ⊤, w₂ = ⊥ the two sides are ⊤ and ⊥). So that step is
  made on the real numbers: the entries x_i and w_{o,i} are images of reals, the image of a finite sum of reals is the
  sum of the images, and on the reals the step is `Finset.mul_sum`. The entries b_o are never multiplied and may be
  any extended reals.
-/
import Idealize.ShloMosaic.PureOps.Ideal

noncomputable section

namespace Cert.SumLinear

open Finset

/-- The image in the extended reals of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor goes into a finite sum of reals, on the extended reals. -/
theorem coe_mul_sum {O : Type*} [Fintype O] (a : ℝ) (w : O → ℝ) :
    (a : EReal) * ∑ o, (w o : EReal) = ∑ o, (a : EReal) * (w o : EReal) := by
  rw [← coe_sum, ← EReal.coe_mul, Finset.mul_sum, coe_sum]
  exact Finset.sum_congr rfl fun o _ => EReal.coe_mul a (w o)

/-- Σ_o (Σ_i x_i·w_{o,i} + b_o) = Σ_i x_i·(Σ_o w_{o,i}) + Σ_o b_o when the x_i and the w_{o,i} are real. -/
theorem sum_linear_law {I O : Type*} [Fintype I] [Fintype O] (x : I → EReal) (w : O → I → EReal) (b : O → EReal)
    (hx : ∀ i, ∃ r : ℝ, x i = (r : EReal)) (hw : ∀ o i, ∃ r : ℝ, w o i = (r : EReal)) :
    ∑ o, ((∑ i, x i * w o i) + b o) = (∑ i, x i * ∑ o, w o i) + ∑ o, b o := by
  choose xr hxr using hx
  choose wr hwr using hw
  rw [Finset.sum_add_distrib, Finset.sum_comm]
  refine congrArg (· + ∑ o, b o) (Finset.sum_congr rfl fun i _ => ?_)
  simp only [hxr, hwr]
  exact (coe_mul_sum (xr i) fun o => wr o i).symm

end Cert.SumLinear

end
-- ==== Proof.RefIsG.lean ====
/-
  The reference program computes G on real entries.

  Read one operation at a time, the reference's result at [p, 0] is the zero constant plus the sum over the 8192 outputs
  o of (Σ_i x[p,i]·W[o,i]) + b[o]: the product of x with W transposed, the bias spread over the rows, their sum, summed
  over o, then given a trailing axis of size one. G is Σ_i x[p,i]·(Σ_o W[o,i]) + Σ_o b[o]. The two are the two sides
  of the summed-linear-layer law, which holds where the entries of x and W are real.
-/
import proofs.«154303_j57415122812994_1_alg».proof.Proof.Spec
import proofs.«154303_j57415122812994_1_alg».proof.Proof.SumLaw
import proofs.«154303_j57415122812994_1_alg».proof.Proof.Gen.ReferenceIdeal.Read

noncomputable section

namespace Cert.SumLinear

open Idealize.ShloMosaic Idealize.ShloMosaic.ValueIdx Cert.ReferenceIdeal Cert.ReferenceIdeal.Read

/-- The row of x the contraction reads for result index j and summand k, column i: x[j₀, i]. -/
theorem lidx_eq (j : SO.Idx) (k : Fin 8192) (i : Fin 2048) :
    lidx_main_v0 (idx_main_v4 (idx_main_v5 j) k) i = ix2 (⟨(j 0).val, idx2_lt0 j⟩ : Fin 16384) i :=
  funext fun a => Fin.ext (by match a with | ⟨0, _⟩ => rfl | ⟨1, _⟩ => rfl)

/-- The row of W it reads: W[k, i]. -/
theorem ridx_eq (j : SO.Idx) (k : Fin 8192) (i : Fin 2048) :
    ridx_main_v0 (idx_main_v4 (idx_main_v5 j) k) i = ix2 k i :=
  funext fun a => Fin.ext (by match a with | ⟨0, _⟩ => rfl | ⟨1, _⟩ => rfl)

/-- The bias entry the two broadcasts read: b[k]. -/
theorem bidx_eq (j : SO.Idx) (k : Fin 8192) :
    idx_main_v1 (idx_main_v2 (idx_main_v4 (idx_main_v5 j) k)) = ix1 k :=
  funext fun a => Fin.ext (by match a with | ⟨0, _⟩ => rfl)

/-- On real entries the reference's result is G. -/
theorem ref_eq_G
    (x : FVec Ideal SX .f32) (W : FVec Ideal SW .f32) (b : FVec Ideal SB .f32)
    (hx : AllReal x) (hW : AllReal W) (hb : AllReal b) :
    Cert.ReferenceIdeal.Read.val_main_v5 (F := Ideal) x W b = G x W b := by
  funext j
  rw [val_main_v5_apply, val_main_v4_apply]
  simp only [val_main_v3_apply, val_main_v0_apply, val_main_v2_apply, val_main_v1_apply, val_main_cst_apply,
    lidx_eq, ridx_eq, bidx_eq, Ideal.addf_def, Ideal.ofBits_def, Ideal.ofBits_zero_f32, zero_add]
  exact sum_linear_law (fun i => x (ix2 (⟨(j 0).val, idx2_lt0 j⟩ : Fin 16384) i)) (fun o i => W (ix2 o i)) (fun o => b (ix1 o))
    (fun i => hx _) (fun o i => hW _)

end Cert.SumLinear

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«154303_j57415122812994_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Finite.lean ====
/-
  From the printed precondition to "every entry of the three arguments is a real number".

  The precondition is the conjunction of three tests, one per argument, each of the form "every |entry| is below +∞",
  printed as a reduction by `and` of the comparison of |a| with the +∞ constant spread over a's shape. The function's
  one result is 1 exactly when each of the three reductions is 1, and a reduction by `and` that is 1 had a 1 at every
  entry: there |a| = max(a, −a) < ⊤ on the extended reals, which excludes both infinities.
-/
import proofs.«154303_j57415122812994_1_alg».proof.Proof.Spec
import proofs.«154303_j57415122812994_1_alg».proof.Pre_finite_inputs
import proofs.«154303_j57415122812994_1_alg».proof.Proof.Gen.Pre_finite_inputs
import proofs.«154303_j57415122812994_1_alg».proof.Proof.LibFinitePre

noncomputable section

namespace Cert.SumLinear

open Idealize.ShloMosaic Idealize.ShloMosaic.ValueIdx

/-- The precondition holds: all three arguments have real entries only. -/
theorem allReal_of_pre [Cert.Pre_finite_inputs.Facts]
    (x : FVec Ideal SX .f32) (W : FVec Ideal SW .f32) (b : FVec Ideal SB .f32)
    (h : Cert.Pre_finite_inputs.fn (F := Ideal) x W b = fun _ => 1#1) :
    AllReal x ∧ AllReal W ∧ AllReal b := by
  have h0 := congrFun h ix0
  dsimp only [Cert.Pre_finite_inputs.fn] at h0
  obtain ⟨hxW, hb⟩ := IntOp.andi_eq_one.1 h0
  obtain ⟨hx, hW⟩ := IntOp.andi_eq_one.1 hxW
  exact ⟨fun i => Cert.LibFinitePre.all_real x _ _ _ hx i, fun i => Cert.LibFinitePre.all_real W _ _ _ hW i,
    fun i => Cert.LibFinitePre.all_real b _ _ _ hb i⟩

end Cert.SumLinear

end
-- ==== Proof.lean ====
/-
  A linear layer summed over its output axis, two ways.

  The reference computes `y = x·Wᵀ + b` (x : [16384, 2048], W : [8192, 2048], b : [8192]) and sums each row of `y` over the
  8192 outputs. The kernel never forms `y`: a first launch sums `W` over its output axis, block of rows by block of rows
  into an accumulator, giving one row of 2048 column sums; a second launch takes the dot product of every row of `x` with
  that row; the host adds the sum of the bias. On the extended reals both are
  `out[p] = Σ_i x[p,i]·(Σ_o W[o,i]) + Σ_o b[o]`: for the kernel by regrouping sums only, for the reference by moving the sum
  over outputs inside the product, which is distributivity and holds because the precondition makes every entry a real
  number.

  The three frames: each kernel program (the word-level one and its idealization, the same text read at two instances)
  runs to the end leaving its arguments unchanged — the launch of its two regions and host tail as a list of segments —,
  and the reference's frame is its run with the result dropped. The idealization rewrote nothing, so there is nothing to
  preserve.
-/
import proofs.«154303_j57415122812994_1_alg».proof.Defs
import proofs.«154303_j57415122812994_1_alg».proof.Proof.Gen.Kernel
import proofs.«154303_j57415122812994_1_alg».proof.Proof.Gen.KernelIdeal
import proofs.«154303_j57415122812994_1_alg».proof.Proof.Gen.ReferenceIdeal
import proofs.«154303_j57415122812994_1_alg».proof.Proof.Gen.ReferenceIdeal.Run
import proofs.«154303_j57415122812994_1_alg».proof.Proof.Gen.ReferenceIdeal.Read
import proofs.«154303_j57415122812994_1_alg».proof.Proof.Gen.Pre_finite_inputs
import proofs.«154303_j57415122812994_1_alg».proof.Proof.K.Run
import proofs.«154303_j57415122812994_1_alg».proof.Proof.KI.Run
import proofs.«154303_j57415122812994_1_alg».proof.Proof.KI.Value
import proofs.«154303_j57415122812994_1_alg».proof.Proof.RefIsG
import proofs.«154303_j57415122812994_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end with
    `out[p] = Σ_i x[p,i]·(Σ_o W[o,i]) + Σ_o b[o]`: the kernel by its run read through its regions, the reference by its run and
    the law that moves the sum over outputs inside the product on real entries. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.SumLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v4 (by decide))).trans (Cert.KernelIdeal.Hand.kernel_value m c),
       (h c _ (Cert.KernelIdeal.Hand.mem_uc Cert.KernelIdeal.main_arg0 (by decide))).trans (Cert.KernelIdeal.Hand.WL3_main_arg0 m c),
       (h c _ (Cert.KernelIdeal.Hand.mem_uc Cert.KernelIdeal.main_arg1 (by decide))).trans (Cert.KernelIdeal.Hand.WL3_main_arg1 m c),
       (h c _ (Cert.KernelIdeal.Hand.mem_uc Cert.KernelIdeal.main_arg2 (by decide))).trans (Cert.KernelIdeal.Hand.WL3_main_arg2 m c)⟩)
      (Cert.KernelIdeal.Hand.run_all m ρ)
  · refine (θ_run Cert.ReferenceIdeal.defs _ _).mono (fun _ h c => ⟨?_, (h c).2⟩)
      (Cert.ReferenceIdeal.Value.run (F := Ideal) m' ρ')
    obtain ⟨hx, hW, hb⟩ := Cert.SumLinear.allReal_of_pre _ _ _ (hpre c)
    rw [(h c).1, Cert.ReferenceIdeal.Read.val_main_v5_eq, (hagree c).1, (hagree c).2.1, (hagree c).2.2]
    exact Cert.SumLinear.ref_eq_G _ _ _ hx hW hb

end Cert.Proof

/-- Everything the certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
